-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S4096x3 : Shape := ⟨2, ![4096, 3]⟩
abbrev S4x3 : Shape := ⟨2, ![4, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S4096x3 : S_.BroadcastsInDim S4096x3 (![] : Fin 0 → Fin S4096x3.rank)
  reducesTo_S4096x3_S_d0_1 : S4096x3.ReducesTo [0, 1] S_
  bcast_S_S4x3 : S_.BroadcastsInDim S4x3 (![] : Fin 0 → Fin S4x3.rank)
  reducesTo_S4x3_S_d0_1 : S4x3.ReducesTo [0, 1] S_

variable [Facts]

def fn_part1 {F : FTy → Type} [FloatOps F] (main_v13 : IVec S_ 1) (main_v16 : IVec S4x3 1) : IVec S_ 1 :=
  let main_c_5 : IVec S_ 1 := constantI S_ 1 1#1
  let main_v17 : IVec S_ 1 := (fun x v => Host.reduce IntOp.andi x v reducesTo_S4x3_S_d0_1 h_S_) main_v16 main_c_5
  let main_v18 : IVec S_ 1 := andi main_v13 main_v17
  main_v18

def fn {F : FTy → Type} [FloatOps F] (main_arg0 : FVec F S16384x3 .f32) (main_arg1 : FVec F S4096x3 .f32) (main_arg2 : FVec F S4096x3 .f32) (main_arg3 : FVec F S4x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S4096x3 .f32 := Host.absf main_arg2
  let main_cst_2 : FVec F S_ .f32 := constant S_ .f32 0x7F800000#32
  let main_v10 : FVec F S4096x3 .f32 := broadcastInDim S4096x3 ![] bcast_S_S4096x3 main_cst_2
  let main_v11 : IVec S4096x3 1 := cmpf .olt main_v9 main_v10
  let main_c_3 : IVec S_ 1 := constantI S_ 1 1#1
  let main_v12 : IVec S_ 1 := (fun x v => Host.reduce IntOp.andi x v reducesTo_S4096x3_S_d0_1 h_S_) main_v11 main_c_3
  let main_v13 : IVec S_ 1 := andi main_v8 main_v12
  let main_v14 : FVec F S4x3 .f32 := Host.absf main_arg3
  let main_cst_4 : FVec F S_ .f32 := constant S_ .f32 0x7F800000#32
  let main_v15 : FVec F S4x3 .f32 := broadcastInDim S4x3 ![] bcast_S_S4x3 main_cst_4
  let main_v16 : IVec S4x3 1 := cmpf .olt main_v14 main_v15
  fn_part1 (F := F) main_v13 main_v16
-- ==== Kernel.lean ====
abbrev S16384x3 : Shape := ⟨2, ![16384, 3]⟩
abbrev S4096x3 : Shape := ⟨2, ![4096, 3]⟩
abbrev S4x3 : Shape := ⟨2, ![4, 3]⟩
abbrev S1024x3 : Shape := ⟨2, ![1024, 3]⟩
abbrev S1024 : Shape := ⟨1, ![1024]⟩
abbrev S1024x1 : Shape := ⟨2, ![1024, 1]⟩
abbrev S1024x4 : Shape := ⟨2, ![1024, 4]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x3, .f32⟩
  | .hbm, ⟨1, _⟩ => ⟨S4096x3, .f32⟩
  | .hbm, ⟨2, _⟩ => ⟨S4096x3, .f32⟩
  | .hbm, ⟨3, _⟩ => ⟨S4x3, .f32⟩
  | .hbm, ⟨4, _⟩ => ⟨S16384x3, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x3, .f32⟩
  | .local _ .vmem, ⟨5, _⟩ => ⟨S1024x3, .f32⟩
  | .local _ .vmem, ⟨6, _⟩ => ⟨S4x3, .f32⟩
  | .local _ .vmem, ⟨7, _⟩ => ⟨S1024x3, .f32⟩
  | .local _ .vmem, ⟨8, _⟩ => ⟨S1024x3, .f32⟩
  | .local _ .vmem, ⟨9, _⟩ => ⟨S1024x3, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  reduces_S1024x3_S1024 : S1024x3.Reduces [1] S1024
  shapeCasts_S1024_S1024x1 : S1024.ShapeCasts S1024x1
  concatenates_S1024x3_S1024x1_S1024x4_d1 : Shape.Concatenates [S1024x3, S1024x1] S1024x4 1
  broadcasts_S1024x1_S1024x1024 : S1024x1.Broadcasts S1024x1024
  bitsLt_bf16_f32 : FTy.bits .bf16 < FTy.bits .f32
  inb_S4x3_S4x3_0_0 : ∀ a, (![0, 0] : Fin 2 → Nat) a + S4x3.size a ≤ S4x3.size a
  h_S4x3 : 0 < S4x3.numel
  concatenates_S1024x1_S1024x3_S1024x4_d1 : Shape.Concatenates [S1024x1, S1024x3] S1024x4 1
  dot_S1024x4_S1024x4_S1024x1024_1_1_0_0_n_n_wf : DotDims.WF S1024x4 S1024x4 S1024x1024 [1] [1] [0] [0] [] []
  dot_S1024x1024_S1024x3_S1024x3_1_0_0_1_n_n_wf : DotDims.WF S1024x1024 S1024x3 S1024x3 [1] [0] [0] [1] [] []
  dot_S1024x4_S4x3_S1024x3_1_0_0_1_n_n_wf : DotDims.WF S1024x4 S4x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S4096x3.size a
  hwx0_1 : ∀ i : grid0.Coords, EltTy.bits .f32 = 32 ∨ (Rect.block (s := S4096x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S4096x3.size a
  hwx0_2 : ∀ i : grid0.Coords, EltTy.bits .f32 = 32 ∨ (Rect.block (s := S4096x3) S1024x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x3.size a ≤ S4x3.size a
  hwx0_3 : ∀ i : grid0.Coords, EltTy.bits .f32 = 32 ∨ (Rect.block (s := S4x3) S4x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x3.size a ≤ S16384x3.size a
  hwx0_4 : ∀ i : grid0.Coords, EltTy.bits .f32 = 32 ∨ (Rect.block (s := S16384x3) S1024x3.size (cc0_transform_4 i) (hinb0_4 i)).WholeWords (EltTy.packing .f32)

variable [Facts₀]

def dot_S1024x4_S1024x4_S1024x1024_1_1_0_0_n_n : DotDims S1024x4 S1024x4 S1024x1024 where
  lhsContracting := [1]
  rhsContracting := [1]
  lhsNonContracting := [0]
  rhsNonContracting := [0]
  lhsBatch := []
  rhsBatch := []
  wf := dot_S1024x4_S1024x4_S1024x1024_1_1_0_0_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf
def dot_S1024x4_S4x3_S1024x3_1_0_0_1_n_n : DotDims S1024x4 S4x3 S1024x3 where
  lhsContracting := [1]
  rhsContracting := [0]
  lhsNonContracting := [0]
  rhsNonContracting := [1]
  lhsBatch := []
  rhsBatch := []
  wf := dot_S1024x4_S4x3_S1024x3_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x3 : Shape := ⟨2, ![16384, 3]⟩
abbrev S4096x3 : Shape := ⟨2, ![4096, 3]⟩
abbrev S4x3 : Shape := ⟨2, ![4, 3]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S3x4096 : Shape := ⟨2, ![3, 4096]⟩
abbrev S16384x4 : Shape := ⟨2, ![16384, 4]⟩

abbrev nBuf : Space → Nat
  | .hbm => 42
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S4096x3, .f32⟩
  | .hbm, ⟨2, _⟩ => ⟨S4096x3, .f32⟩
  | .hbm, ⟨3, _⟩ => ⟨S4x3, .f32⟩
  | .hbm, ⟨4, _⟩ => ⟨S16384x3, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S4096x3, .f32⟩
  | .hbm, ⟨9, _⟩ => ⟨S_, .f32⟩
  | .hbm, ⟨10, _⟩ => ⟨S4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S3x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .i1⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S_, .f32⟩
  | .hbm, ⟨37, _⟩ => ⟨S16384x1, .f32⟩
  | .hbm, ⟨38, _⟩ => ⟨S16384x4, .f32⟩
  | .hbm, ⟨39, _⟩ => ⟨S16384x3, .f32⟩
  | .hbm, ⟨40, _⟩ => ⟨S16384x3, .f32⟩
  | .hbm, ⟨41, _⟩ => ⟨S16384x3, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  reducesTo_S4096x3_S4096_d1 : S4096x3.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  transposes_S4096x3_S3x4096_1_0 : S4096x3.Transposes [1, 0] S3x4096
  bcast_S_S16384x4096 : S_.BroadcastsInDim S16384x4096 (![] : Fin 0 → Fin S16384x4096.rank)
  bcast_S_S16384x1 : S_.BroadcastsInDim S16384x1 (![] : Fin 0 → Fin S16384x1.rank)
  concatenates_S16384x1_S16384x3_S16384x4_d1 : Shape.Concatenates [S16384x1, S16384x3] S16384x4 1
  dot_S16384x3_S3x4096_S16384x4096_1_0_0_1_n_n_wf : DotDims.WF S16384x3 S3x4096 S16384x4096 [1] [0] [0] [1] [] []
  dot_S16384x4096_S4096x3_S16384x3_1_0_0_1_n_n_wf : DotDims.WF S16384x4096 S4096x3 S16384x3 [1] [0] [0] [1] [] []
  dot_S16384x4_S4x3_S16384x3_1_0_0_1_n_n_wf : DotDims.WF S16384x4 S4x3 S16384x3 [1] [0] [0] [1] [] []

variable [Facts₀]

def dot_S16384x3_S3x4096_S16384x4096_1_0_0_1_n_n : DotDims S16384x3 S3x4096 S16384x4096 where
  lhsContracting := [1]
  rhsContracting := [0]
  lhsNonContracting := [0]
  rhsNonContracting := [1]
  lhsBatch := []
  rhsBatch := []
  wf := dot_S16384x3_S3x4096_S16384x4096_1_0_0_1_n_n_wf
def dot_S16384x4096_S4096x3_S16384x3_1_0_0_1_n_n : DotDims S16384x4096 S4096x3 S16384x3 where
  lhsContracting := [1]
  rhsContracting := [0]
  lhsNonContracting := [0]
  rhsNonContracting := [1]
  lhsBatch := []
  rhsBatch := []
  wf := dot_S16384x4096_S4096x3_S16384x3_1_0_0_1_n_n_wf
def dot_S16384x4_S4x3_S16384x3_1_0_0_1_n_n : DotDims S16384x4 S4x3 S16384x3 where
  lhsContracting := [1]
  rhsContracting := [0]
  lhsNonContracting := [0]
  rhsNonContracting := [1]
  lhsBatch := []
  rhsBatch := []
  wf := dot_S16384x4_S4x3_S16384x3_1_0_0_1_n_n_wf

class Facts : Prop extends Facts₀ where

variable [Facts]
-- ==== Proof.Spec.lean ====
/-
  The specification. A thin-plate-spline interpolant in three dimensions: for a query point u_b and control points
  c_n the radial kernel is φ(r) = r · log r of the clamped Euclidean distance r = max(√(max(|u_b − c_n|², 0)), ε),
  set to 0 where √(…) < ε; the result is  Σ_n φ(r_bn) · w_nj  +  (1, u_b) · p_·j .
  The squared distance is spelled in two arrangements: the kernel's,
      |u|² + ( Σ_d u_d · (−2 · c_d)  +  1 · |c|² ),
  one contraction over the augmented rows (u, 1) and (−2c, |c|²), and the reference's,
      (|u|² + |c|²) − 2 · Σ_d u_d · c_d .
  Everything here is stated on the extended reals, over literal shapes, with the float words left as words.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A rank-two array of extended reals. -/
abbrev Arr (a b : Nat) : Type := (⟨2, ![a, b]⟩ : Shape).Idx → EReal

/-- The float words both programs spell: 0, 1, −2, 2 and ε = f32(1e-10). -/
abbrev w0 : EReal := Ideal.ofBits .f32 0x00000000#32
abbrev w1 : EReal := Ideal.ofBits .f32 0x3F800000#32
abbrev wm2 : EReal := Ideal.ofBits .f32 0xC0000000#32
abbrev w2 : EReal := Ideal.ofBits .f32 0x40000000#32
abbrev weps : EReal := Ideal.ofBits .f32 0x2EDBE6FF#32

/-- The radial kernel as a function of the squared distance: with r = √(max(sq, 0)) and r' = max(r, ε), it is
    r' · log r', replaced by 0 where r < ε. -/
def tps (sq : EReal) : EReal :=
  Scalar.select (Ideal.cmp .olt (Ideal.sqrt (max sq w0)) weps) w0
    (max (Ideal.sqrt (max sq w0)) weps * Ideal.log (max (Ideal.sqrt (max sq w0)) weps))

/-- The squared norm of row `r` of an `[n, 3]` array. -/
def nsq {n : Nat} (X : Arr n 3) (r : Fin n) : EReal := ∑ d : Fin 3, X (ix2 r d) * X (ix2 r d)

/-- The squared distance between row `b` of `U` and row `q` of `C`, in the kernel's arrangement. -/
def sqK {n k : Nat} (U : Arr n 3) (C : Arr k 3) (b : Fin n) (q : Fin k) : EReal :=
  nsq U b + ((∑ d : Fin 3, U (ix2 b d) * (wm2 * C (ix2 q d))) + w1 * nsq C q)

/-- The same squared distance in the reference's arrangement (each host sum starts from the zero word). -/
def sqR {n k : Nat} (U : Arr n 3) (C : Arr k 3) (b : Fin n) (q : Fin k) : EReal :=
  ((w0 + nsq U b) + (w0 + nsq C q)) - w2 * ∑ d : Fin 3, U (ix2 b d) * C (ix2 q d)

/-- The affine term (1, u_b) · p_·j . -/
def affine {n : Nat} (U : Arr n 3) (P : Arr 4 3) (b : Fin n) (j : Fin 3) : EReal :=
  w1 * P (ix2 0 j) + ∑ d : Fin 3, U (ix2 b d) * P (ix2 d.succ j)

/-- Control point `q` of tile `s` (tiles of 1024 control points; `s` read modulo 4 so that the row is defined for every `s`). -/
def ctlRow (s : Nat) (q : Fin 1024) : Fin 4096 := ⟨1024 * (s % 4) + q.val, by have := q.isLt; have := Nat.mod_lt s (by decide : 0 < 4); omega⟩

/-- Query point `p` of tile `i` (tiles of 1024 queries; `i` read modulo 16). -/
def qryRow (i : Nat) (p : Fin 1024) : Fin 16384 := ⟨1024 * (i % 16) + p.val, by have := p.isLt; have := Nat.mod_lt i (by decide : 0 < 16); omega⟩

/-- One tile's contribution to entry `(b, j)`: Σ over the 1024 control points of tile `s` of φ · w. -/
def tileSum (U : Arr 16384 3) (C W : Arr 4096 3) (s : Nat) (b : Fin 16384) (j : Fin 3) : EReal :=
  ∑ q : Fin 1024, tps (sqK U C b (ctlRow s q)) * W (ix2 (ctlRow s q) j)

/-- WHAT THE KERNEL COMPUTES: the zero word, plus the four tiles' contributions in order, plus the affine term. -/
def GK (U : Arr 16384 3) (C W : Arr 4096 3) (P : Arr 4 3) : Arr 16384 3 := fun i =>
  (w0 + ∑ s ∈ Finset.range 4, tileSum U C W s (i 0) (i 1)) + affine U P (i 0) (i 1)

/-- WHAT THE REFERENCE COMPUTES: one sum over all 4096 control points, plus the affine term. -/
def GR (U : Arr 16384 3) (C W : Arr 4096 3) (P : Arr 4 3) : Arr 16384 3 := fun i =>
  (∑ n : Fin 4096, tps (sqR U C (i 0) n) * W (ix2 n (i 1))) + affine U P (i 0) (i 1)

end Cert.Spec

end
-- ==== Proof.Pieces.lean ====
import proofs.«156540_j52896817217912_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

/-!
  What one step of the body leaves behind, as pure terms of what it loaded. At a grid point the body (i) at the first
  control-point tile zeroes the accumulator, (ii) adds this tile's contribution to the accumulator, and (iii) at the last
  tile writes accumulator + affine term to the output block. The accumulator after a step and the output block after the
  last step are stated here over the body's named arithmetic, for any float instance.
-/

namespace Cert.Pieces

open Cert.KernelIdeal Cert.KernelIdeal.Gen

variable {F : FTy → Type} [FloatOps F]

theorem hz : (![0, 0] : Fin 2 → Nat) = fun _ => 0 := funext fun a => by fin_cases a <;> rfl

/-- A middle tile: the accumulator `xs0` the step found becomes `xs0 + (this tile's contribution)`. -/
theorem scratch_B (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x3 .f32) (harg4 : arg4.IsWhole) (arg5 : Memref sig .tc .vmem S4x3 .f32) (harg5 : arg5.IsWhole) (arg6 : Memref sig .tc .vmem S1024x3 .f32) (harg6 : arg6.IsWhole) (arg7 : Memref sig .tc .vmem S1024x3 .f32) (harg7 : arg7.IsWhole) (hc0 : ¬cond0_0 i) (hc1 : ¬cond0_1 i)
    (x0 x1 x2 : Vec F S1024x3 .f32) (x3 : Vec F S4x3 .f32) (xs0 : Vec F S1024x3 .f32) :
    sout0_B_0 c i arg2 harg2 arg3 harg3 arg4 harg4 arg5 harg5 arg6 harg6 arg7 harg7 hc0 hc1 x0 x1 x2 x3 xs0 = k0_pay1 (k0_pay4 x0 x1 x2 xs0) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg7.read_unread,
    View.ld_unit_zero (S := S1024x3) hz]

/-- The last tile leaves the accumulator the same way. -/
theorem scratch_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x3 .f32) (harg4 : arg4.IsWhole) (arg5 : Memref sig .tc .vmem S4x3 .f32) (harg5 : arg5.IsWhole) (arg6 : Memref sig .tc .vmem S1024x3 .f32) (harg6 : arg6.IsWhole) (arg7 : Memref sig .tc .vmem S1024x3 .f32) (harg7 : arg7.IsWhole) (hc0 : ¬cond0_0 i) (hc1 : cond0_1 i)
    (x0 x1 x2 : Vec F S1024x3 .f32) (x3 : Vec F S4x3 .f32) (xs0 : Vec F S1024x3 .f32) :
    sout0_C_0 c i arg2 harg2 arg3 harg3 arg4 harg4 arg5 harg5 arg6 harg6 arg7 harg7 hc0 hc1 x0 x1 x2 x3 xs0 = k0_pay1 (k0_pay4 x0 x1 x2 xs0) := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg7.read_unread,
    View.ld_unit_zero (S := S1024x3) hz]

/-- … and writes to the output block the new accumulator plus the affine term. -/
theorem out_C (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x3 .f32) (harg4 : arg4.IsWhole) (arg5 : Memref sig .tc .vmem S4x3 .f32) (harg5 : arg5.IsWhole) (arg6 : Memref sig .tc .vmem S1024x3 .f32) (harg6 : arg6.IsWhole) (arg7 : Memref sig .tc .vmem S1024x3 .f32) (harg7 : arg7.IsWhole) (hc0 : ¬cond0_0 i) (hc1 : cond0_1 i)
    (x0 x1 x2 : Vec F S1024x3 .f32) (x3 : Vec F S4x3 .f32) (xs0 : Vec F S1024x3 .f32) :
    out0_C_4 c i arg2 harg2 arg3 harg3 arg4 harg4 arg5 harg5 arg6 harg6 arg7 harg7 hc0 hc1 x0 x1 x2 x3 xs0 = k0_pay2 x0 x3 (k0_pay1 (k0_pay4 x0 x1 x2 xs0)) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread,
    harg7.read_unread, View.ld_unit_zero (S := S1024x3) hz, View.ld_unit_zero (S := S4x3) hz]
  rw [View.readCov_unit_zero (S := S1024x3) _ hz]

/-- The first tile: the accumulator is zeroed, then this tile's contribution is added. -/
theorem scratch_A (c : Dev nD) (i : grid0.Coords) (arg2 : Memref sig .tc .vmem S1024x3 .f32) (harg2 : arg2.IsWhole) (arg3 : Memref sig .tc .vmem S1024x3 .f32) (harg3 : arg3.IsWhole) (arg4 : Memref sig .tc .vmem S1024x3 .f32) (harg4 : arg4.IsWhole) (arg5 : Memref sig .tc .vmem S4x3 .f32) (harg5 : arg5.IsWhole) (arg6 : Memref sig .tc .vmem S1024x3 .f32) (harg6 : arg6.IsWhole) (arg7 : Memref sig .tc .vmem S1024x3 .f32) (harg7 : arg7.IsWhole) (hc0 : cond0_0 i) (hc1 : ¬cond0_1 i)
    (x0 x1 x2 : Vec F S1024x3 .f32) (x3 : Vec F S4x3 .f32) :
    sout0_A_0 c i arg2 harg2 arg3 harg3 arg4 harg4 arg5 harg5 arg6 harg6 arg7 harg7 hc0 hc1 x0 x1 x2 x3 = k0_pay1 (k0_pay4 x0 x1 x2 k0_pay3) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x3) hz, View.readCov_unit_zero (S := S1024x3) _ hz]
  simp only [View.readAt_eq_ld, harg2.read_unread, harg3.read_unread, harg4.read_unread,
    View.ld_unit_zero (S := S1024x3) hz]

end Cert.Pieces

end
-- ==== Proof.Blocks.lean ====
/-
  Where a window's block sits in its array. The grid's 64 points are numbered t = 4·i + s: i the tile of 1024 query
  points, s the tile of 1024 control points. At point t the query window reads rows 1024·i … of the query array, the
  control-point and weight windows read rows 1024·s … of theirs, the coefficient window reads its whole 4×3 array, and the
  output window's block is rows 1024·i … of the result. An entry (p, d) of a block is the array's entry at
  (block index × 1024 + p, d).
-/
import proofs.«156540_j52896817217912_1_alg».proof.Proof.Gen.KernelIdeal.Frame
import proofs.«156540_j52896817217912_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.Blocks

open Cert.KernelIdeal Cert.KernelIdeal.Gen

variable {F : FTy → Type} [FloatOps F]
variable (m : (ℓ : Loc nD τ sig) → Buf (Elt F) ℓ)

/-- The printed index maps, decided once over the grid: block indices as functions of the point's number. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

theorem t_lt (t : Fin cfg0.N) : t.val < 64 := lt_of_lt_of_eq t.isLt (show cfg0.N = 64 from N_0)

/-- The query block at point `t`: rows of tile `t / 4`. -/
theorem iblk0_apply (c : Dev nD) (t : Fin cfg0.N) (p : Fin 1024) (d : Fin 3) :
    (iblk m c 0 t : Vec F S1024x3 .f32) (ix2 p d)
      = m ((c : Thread nD τ).loc main_arg0) (ix2 (Cert.Spec.qryRow (t.val / 4) p) d) := by
  obtain ⟨e0, e1, -⟩ := idx_facts t
  have ht := t_lt t
  unfold iblk
  rw [View.read_apply]
  show V m c main_arg0 _ = m (c.tc.loc main_arg0) _
  unfold V
  congr 1
  funext a
  apply Fin.ext
  match a with
  | ⟨0, _⟩ =>
    show win0_0.index t 0 * 1024 + 1 * p.val = 1024 * ((t.val / 4) % 16) + p.val
    rw [e0]; omega
  | ⟨1, _⟩ =>
    show win0_0.index t 1 * 3 + 1 * d.val = d.val
    rw [e1]; omega

/-- The control-point block at point `t`: rows of tile `t % 4`. -/
theorem iblk1_apply (c : Dev nD) (t : Fin cfg0.N) (q : Fin 1024) (d : Fin 3) :
    (iblk m c 1 t : Vec F S1024x3 .f32) (ix2 q d)
      = m ((c : Thread nD τ).loc main_arg1) (ix2 (Cert.Spec.ctlRow t.val q) d) := by
  obtain ⟨-, -, e0, e1, -⟩ := idx_facts t
  unfold iblk
  rw [View.read_apply]
  show V m c main_arg1 _ = m (c.tc.loc main_arg1) _
  unfold V
  congr 1
  funext a
  apply Fin.ext
  match a with
  | ⟨0, _⟩ =>
    show win0_1.index t 0 * 1024 + 1 * q.val = 1024 * (t.val % 4) + q.val
    rw [e0]; omega
  | ⟨1, _⟩ =>
    show win0_1.index t 1 * 3 + 1 * d.val = d.val
    rw [e1]; omega

/-- The weight block at point `t`: rows of tile `t % 4`. -/
theorem iblk2_apply (c : Dev nD) (t : Fin cfg0.N) (q : Fin 1024) (d : Fin 3) :
    (iblk m c 2 t : Vec F S1024x3 .f32) (ix2 q d)
      = m ((c : Thread nD τ).loc main_arg2) (ix2 (Cert.Spec.ctlRow t.val q) d) := by
  obtain ⟨-, -, -, -, e0, e1, -⟩ := idx_facts t
  unfold iblk
  rw [View.read_apply]
  show V m c main_arg2 _ = m (c.tc.loc main_arg2) _
  unfold V
  congr 1
  funext a
  apply Fin.ext
  match a with
  | ⟨0, _⟩ =>
    show win0_2.index t 0 * 1024 + 1 * q.val = 1024 * (t.val % 4) + q.val
    rw [e0]; omega
  | ⟨1, _⟩ =>
    show win0_2.index t 1 * 3 + 1 * d.val = d.val
    rw [e1]; omega

/-- The coefficient block is the whole coefficient array at every point. -/
theorem iblk3_apply (c : Dev nD) (t : Fin cfg0.N) (k : Fin 4) (d : Fin 3) :
    (iblk m c 3 t : Vec F S4x3 .f32) (ix2 k d) = m ((c : Thread nD τ).loc main_arg3) (ix2 k d) := by
  obtain ⟨-, -, -, -, -, -, e0, e1, -⟩ := idx_facts t
  unfold iblk
  rw [View.read_apply]
  show V m c main_arg3 _ = m (c.tc.loc main_arg3) _
  unfold V
  congr 1
  funext a
  apply Fin.ext
  match a with
  | ⟨0, _⟩ =>
    show win0_3.index t 0 * 4 + 1 * k.val = k.val
    rw [e0]; omega
  | ⟨1, _⟩ =>
    show win0_3.index t 1 * 3 + 1 * d.val = d.val
    rw [e1]; omega

/-- An entry of the output block at point `t` is the result array's entry in tile `t / 4`. -/
theorem oblk_emb (t : Fin cfg0.N) (p : Fin 1024) (j : Fin 3) :
    ((cfg0.win 4).blk t).view.emb (ix2 p j) = ix2 (Cert.Spec.qryRow (t.val / 4) p) j := by
  obtain ⟨-, -, -, -, -, -, -, -, e0, e1⟩ := idx_facts t
  have ht := t_lt t
  funext a
  apply Fin.ext
  match a with
  | ⟨0, _⟩ =>
    show win0_4.index t 0 * 1024 + 1 * p.val = 1024 * ((t.val / 4) % 16) + p.val
    rw [e0]; omega
  | ⟨1, _⟩ =>
    show win0_4.index t 1 * 3 + 1 * j.val = j.val
    rw [e1]; omega

end Cert.Blocks

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibMatmulNT.lean ====
/-
  The matrix product that contracts the LAST axis of both operands ("md,nd->mn": rows of the left operand against rows
  of the right one, no transpose materialized), into a zero accumulator, read at an index on the extended reals:
  entry (i, j) is Σ_k l(i, k) · r(j, k). Stated for any extents M, K, N.
-/
import Idealize.ShloMosaic.PureOps.Ideal.Laws
import Idealize.ShloMosaic.Lib.ValueIdx
import Idealize.ShloMosaic.Lib.Pipeline.Value

noncomputable section

open scoped BigOperators

namespace Cert.MatOpsNT

open Idealize.ShloMosaic Idealize.ShloMosaic.ValueIdx

variable {M K N : Nat}

/-- The contraction index set of the product "md,nd->mn" is `Fin K`. -/
abbrev ntContr (M K N : Nat) : (DotDims.transposedRhs M K N).contr.Idx ≃ Fin K :=
  contrEquiv1 (DotDims.transposedRhs M K N) K rfl rfl

/-- The left operand's index at output `(i, j)` and contraction coordinate `k` is `(i, k)`. -/
theorem nt_lhsIdx (i : Fin M) (j : Fin N) (k : Fin K) :
    (DotDims.transposedRhs M K N).lhsIdx (ix2 i j) ((ntContr M K N).symm k) = ix2 i k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 i j) _).trans hk

/-- The right operand's index at output `(i, j)` and contraction coordinate `k` is `(j, k)`. -/
theorem nt_rhsIdx (i : Fin M) (j : Fin N) (k : Fin K) :
    (DotDims.transposedRhs M K N).rhsIdx (ix2 i j) ((ntContr M K N).symm k) = ix2 j k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 i j) _).trans hk

/-- The product "md,nd->mn" into the zero accumulator at `(i, j)` is the sum over `k` of `l(i, k) · r(j, k)`. -/
theorem matmul_nt_zero_apply {φ₁ φ₂ : FTy} (prec : Option ContractPrecision) (l : FVec Ideal ⟨2, ![M, K]⟩ φ₁)
    (r : FVec Ideal ⟨2, ![N, K]⟩ φ₂) (i : Fin M) (j : Fin N) :
    matmul (F := Ideal) (DotDims.transposedRhs M K N) prec l r (constant ⟨2, ![M, N]⟩ .f32 0x00000000#32) (ix2 i j)
      = ∑ k : Fin K, l (ix2 i k) * r (ix2 j k) := by
  simp only [matmul]
  rw [Ideal.matmul_constant_zero_apply]
  rw [← Equiv.sum_comp (ntContr M K N).symm]
  refine Finset.sum_congr rfl fun k _ => ?_
  rw [nt_lhsIdx, nt_rhsIdx]

end Cert.MatOpsNT

end
-- ==== Proof.Pay.lean ====
/-
  The kernel body's arithmetic, read at an index on the extended reals.

  Four pure terms: a block of the zero word; an identity cast; the accumulate step
      acc(p, j) + Σ_q φ(sq(p, q)) · w(q, j),
  where sq(p, q) = |u_p|² + ( Σ_d u_pd · (−2 · c_qd) + 1 · |c_q|² ) is one contraction over the last axis of the
  augmented rows (u_p, 1) and (−2 c_q, |c_q|²), and φ is the clamped radial kernel r · log r of the specification;
  and the epilogue acc(p, j) + (1, u_p) · P_·j .

  Each non-pointwise operation is read at an index by one small lemma: the contraction "md,nd->mn" as a sum over the
  four lanes, the two lane concatenations at a lane of the left or of the right piece, the lane sum of squares as the
  squared norm of a row. The pointwise operations (sum, product, maximum, square root, logarithm, comparison, select,
  and the two format changes, which are the identity on extended reals) read through by definition.
-/
import proofs.«156540_j52896817217912_1_alg».proof.Proof.Gen.KernelIdeal.Skeleton
import proofs.«156540_j52896817217912_1_alg».proof.Proof.Spec
import proofs.«156540_j52896817217912_1_alg».proof.Proof.LibKeepdims
import proofs.«156540_j52896817217912_1_alg».proof.Proof.LibMatmul
import proofs.«156540_j52896817217912_1_alg».proof.Proof.LibMatmulNT
import Idealize.ShloMosaic.Lib.ValueIdx
import Idealize.ShloMosaic.Lib.Pipeline.Value
import Idealize.ShloMosaic.PureOps.Ideal.Laws

noncomputable section

open scoped BigOperators

namespace Cert.Pay

open Cert.KernelIdeal Cert.KernelIdeal.Gen Idealize.ShloMosaic Idealize.ShloMosaic.ValueIdx Cert.MatOpsNT

/-! ## The two trivial payloads -/

/-- The initial accumulator is the zero word everywhere. -/
theorem pay3_apply (y : S1024x3.Idx) : k0_pay3 (F := Ideal) y = Cert.Spec.w0 := by
  unfold k0_pay3
  rw [shapeCast_self]
  rfl

/-- A cast to the same shape is the identity. -/
theorem pay1_eq {F : FTy → Type} [FloatOps F] (v : FVec F S1024x3 .f32) : k0_pay1 v = v :=
  shapeCast_self v _

/-! ## The three contractions' dimension numbers -/

/-- The first contraction is "md,nd->mn"; the other two are plain matrix products. -/
theorem dot0_eq : dot_S1024x4_S1024x4_S1024x1024_1_1_0_0_n_n = DotDims.transposedRhs 1024 4 1024 := rfl
theorem dot1_eq : dot_S1024x1024_S1024x3_S1024x3_1_0_0_1_n_n = DotDims.plain 1024 1024 3 := rfl
theorem dot2_eq : dot_S1024x4_S4x3_S1024x3_1_0_0_1_n_n = DotDims.plain 1024 4 3 := rfl

/-! ## The concatenations along the lane axis, read at an index -/

section Concat
variable {α : Type}

/-- `[x | c]` at a lane below 3 is `x` there. -/
theorem concat31_left (x : S1024x3.Idx → α) (c : S1024x1.Idx → α) (h : Shape.Concatenates [S1024x3, S1024x1] S1024x4 1)
    (p : Fin 1024) (d : Fin 3) :
    concatenate S1024x4 1 [⟨S1024x3, x⟩, ⟨S1024x1, c⟩] h (ix2 p d.castSucc) = x (ix2 p d) :=
  concatenate_pair_apply_left 1 x c h (ix2 p d.castSucc) rfl (ix2 p d) (fun b => match b with
    | ⟨0, _⟩ => rfl
    | ⟨1, _⟩ => rfl)

/-- `[x | c]` at lane 3 is the column `c`. -/
theorem concat31_right (x : S1024x3.Idx → α) (c : S1024x1.Idx → α) (h : Shape.Concatenates [S1024x3, S1024x1] S1024x4 1)
    (p : Fin 1024) :
    concatenate S1024x4 1 [⟨S1024x3, x⟩, ⟨S1024x1, c⟩] h (ix2 p (Fin.last 3)) = c (ix2 p 0) :=
  concatenate_pair_apply_right 1 x c h (ix2 p (Fin.last 3)) rfl rfl (ix2 p 0) (fun b hb => match b, hb with
    | ⟨0, _⟩, _ => rfl
    | ⟨1, _⟩, hb => absurd rfl hb) rfl

/-- `[c | x]` at lane 0 is the column `c`. -/
theorem concat13_left (c : S1024x1.Idx → α) (x : S1024x3.Idx → α) (h : Shape.Concatenates [S1024x1, S1024x3] S1024x4 1)
    (p : Fin 1024) :
    concatenate S1024x4 1 [⟨S1024x1, c⟩, ⟨S1024x3, x⟩] h (ix2 p 0) = c (ix2 p 0) :=
  concatenate_pair_apply_left 1 c x h (ix2 p 0) rfl (ix2 p 0) (fun b => match b with
    | ⟨0, _⟩ => rfl
    | ⟨1, _⟩ => rfl)

/-- `[c | x]` at lane `d + 1` is `x` at lane `d`. -/
theorem concat13_right (c : S1024x1.Idx → α) (x : S1024x3.Idx → α) (h : Shape.Concatenates [S1024x1, S1024x3] S1024x4 1)
    (p : Fin 1024) (d : Fin 3) :
    concatenate S1024x4 1 [⟨S1024x1, c⟩, ⟨S1024x3, x⟩] h (ix2 p d.succ) = x (ix2 p d) :=
  concatenate_pair_apply_right 1 c x h (ix2 p d.succ) rfl rfl (ix2 p d) (fun b hb => match b, hb with
    | ⟨0, _⟩, _ => rfl
    | ⟨1, _⟩, hb => absurd rfl hb) rfl

end Concat

/-! ## The squared norm of a row -/

/-- The lane sum of the squares of row `p` is its squared norm. -/
theorem laneSq_apply (x : FVec Ideal S1024x3 .f32) (h : S1024x3.Reduces [1] S1024) (hφ : FKind.Formats .f32)
    (hacc : (0x00000000#32 : BitVec 32) = FKind.add.neutral .f32 hφ) (p : Fin 1024) :
    multiReduction (F := Ideal) .add [1] S1024 (mulf x x) 0x00000000#32 h hφ hacc (ix1 p) = Cert.Spec.nsq (n := 1024) x p := by
  refine (Ideal.multiReduction_add_single (mulf x x) _ h hφ hacc (ix1 p)).trans ?_
  unfold Cert.Spec.nsq
  show ∑ d : Fin 3, mulf x x (h.lift (ix1 p) d) = _
  refine Finset.sum_congr rfl fun d _ => ?_
  have e : h.lift (ix1 p) d = ix2 p d := by
    funext a
    refine Fin.ext ?_
    match a with
    | ⟨0, _⟩ => rfl
    | ⟨1, _⟩ => rfl
  rw [e]
  rfl

/-! ## The squared distance as the kernel arranges it -/

/-- The broadcast column of squared norms plus the contraction of the augmented rows, at `(p, q)`, is the squared
    distance in the kernel's arrangement: lanes 0–2 of the contraction give Σ_d u_pd · (−2 · c_qd), lane 3 gives 1 · |c_q|². -/
theorem sqK_apply (x0 x1 : FVec Ideal S1024x3 .f32) (hred : S1024x3.Reduces [1] S1024) (hφ : FKind.Formats .f32)
    (hacc : (0x00000000#32 : BitVec 32) = FKind.add.neutral .f32 hφ) (hcast : S1024.ShapeCasts S1024x1)
    (hcat : Shape.Concatenates [S1024x3, S1024x1] S1024x4 1) (hbc : S1024x1.Broadcasts S1024x1024)
    (p q : Fin 1024) :
    addf (broadcastTo S1024x1024 (shapeCast S1024x1 (multiReduction (F := Ideal) .add [1] S1024 (mulf x0 x0) 0x00000000#32 hred hφ hacc) hcast) hbc)
      (matmul (F := Ideal) dot_S1024x4_S1024x4_S1024x1024_1_1_0_0_n_n (some .fp32)
        (concatenate S1024x4 1 [⟨S1024x3, x0⟩, ⟨S1024x1, broadcast S1024x1 (FloatOps.ofBits (F := Ideal) .f32 0x3F800000#32)⟩] hcat)
        (concatenate S1024x4 1 [⟨S1024x3, mulf (broadcast S1024x3 (FloatOps.ofBits (F := Ideal) .f32 0xC0000000#32)) x1⟩,
          ⟨S1024x1, shapeCast S1024x1 (multiReduction (F := Ideal) .add [1] S1024 (mulf x1 x1) 0x00000000#32 hred hφ hacc) hcast⟩] hcat)
        (constant (F := Ideal) S1024x1024 .f32 0x00000000#32)) (ix2 p q)
      = Cert.Spec.sqK (n := 1024) (k := 1024) x0 x1 p q := by
  refine (addf_apply _ _ _).trans ?_
  unfold Cert.Spec.sqK
  refine congrArg₂ (· + ·) ?_ ?_
  · refine (Keepdims.broadcastTo_a1_ab_apply _ hbc p q 0).trans ?_
    refine (Keepdims.shapeCast_a_a1_apply _ hcast p 0).trans ?_
    exact laneSq_apply x0 hred hφ hacc p
  · rw [dot0_eq]
    refine (matmul_nt_zero_apply _ _ _ p q).trans ?_
    rw [Fin.sum_univ_castSucc]
    refine congrArg₂ (· + ·) (Finset.sum_congr rfl fun d _ => ?_) ?_
    · refine congrArg₂ (· * ·) (concat31_left _ _ hcat p d) ?_
      refine (concat31_left _ _ hcat q d).trans ?_
      rfl
    · refine congrArg₂ (· * ·) ?_ ?_
      · refine (concat31_right _ _ hcat p).trans ?_
        rfl
      · refine (concat31_right _ _ hcat q).trans ?_
        refine (Keepdims.shapeCast_a_a1_apply _ hcast q 0).trans ?_
        exact laneSq_apply x1 hred hφ hacc q

/-! ## The accumulate step and the epilogue at an index -/

/-- The accumulate step at `(p, j)`: the accumulator plus the sum over the 1024 control points of the block of the radial
    kernel of the squared distance times the weight. -/
theorem pay4_apply (x0 x1 x2 acc : Vec Ideal S1024x3 .f32) (p : Fin 1024) (j : Fin 3) :
    k0_pay4 (F := Ideal) x0 x1 x2 acc (ix2 p j) = acc (ix2 p j) + ∑ q : Fin 1024, Cert.Spec.tps (Cert.Spec.sqK (n := 1024) (k := 1024) x0 x1 p q) * x2 (ix2 q j) := by
  unfold k0_pay4
  refine (addf_apply (s := S1024x3) (φ := .f32) _ _ _).trans ?_
  refine congrArg (acc (ix2 p j) + ·) ?_
  rw [dot1_eq]
  refine (Cert.MatOps.matmul_plain_zero_apply (φ₁ := .bf16) (φ₂ := .bf16) none _ _ p j).trans ?_
  refine Finset.sum_congr rfl fun q _ => ?_
  refine congrArg₂ (· * ·) ?_ rfl
  unfold Cert.Spec.tps
  rw [← sqK_apply x0 x1 reduces_S1024x3_S1024 (.inl rfl) rfl shapeCasts_S1024_S1024x1
    concatenates_S1024x3_S1024x1_S1024x4_d1 broadcasts_S1024x1_S1024x1024 p q]
  rfl

/-- The epilogue at `(p, j)`: the accumulator plus the affine term; lane 0 of the augmented row is the word 1, lane `d + 1`
    is coordinate `d` of the query point. -/
theorem pay2_apply (x0 : Vec Ideal S1024x3 .f32) (x3 : Vec Ideal S4x3 .f32) (acc : Vec Ideal S1024x3 .f32) (p : Fin 1024) (j : Fin 3) :
    k0_pay2 (F := Ideal) x0 x3 acc (ix2 p j) = acc (ix2 p j) + Cert.Spec.affine (n := 1024) x0 x3 p j := by
  unfold k0_pay2
  refine (addf_apply (s := S1024x3) (φ := .f32) _ _ _).trans ?_
  refine congrArg (acc (ix2 p j) + ·) ?_
  rw [dot2_eq]
  refine (Cert.MatOps.matmul_plain_zero_apply _ _ _ p j).trans ?_
  unfold Cert.Spec.affine
  rw [Fin.sum_univ_succ]
  refine congrArg₂ (· + ·) ?_ (Finset.sum_congr rfl fun d _ => ?_)
  · refine congrArg (· * x3 (ix2 0 j)) ?_
    refine (concat13_left _ _ concatenates_S1024x1_S1024x3_S1024x4_d1 p).trans ?_
    rfl
  · refine congrArg (· * x3 (ix2 d.succ j)) ?_
    exact concat13_right _ _ concatenates_S1024x1_S1024x3_S1024x4_d1 p d

end Cert.Pay

end
-- ==== Proof.Fold.lean ====
/-
  The accumulator over a run of four grid points. Points 4·i, 4·i+1, 4·i+2, 4·i+3 share the query tile i and walk the
  four control-point tiles: the first zeroes the accumulator and adds its tile's contribution, each later one adds its
  own. So after point t the accumulator holds, entry by entry,
        0-word + Σ_{s ≤ t mod 4} (contribution of control-point tile s to query tile t / 4),
  the fold of the per-point step over the run, unrolled.
-/
import proofs.«156540_j52896817217912_1_alg».proof.Proof.Gen.KernelIdeal.Value
import proofs.«156540_j52896817217912_1_alg».proof.Proof.Spec
import proofs.«156540_j52896817217912_1_alg».proof.Proof.Pieces
import proofs.«156540_j52896817217912_1_alg».proof.Proof.Blocks
import proofs.«156540_j52896817217912_1_alg».proof.Proof.Pay
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.Fold

open Cert.KernelIdeal Cert.KernelIdeal.Gen

variable (m : (ℓ : Loc nD τ sig) → Buf (Elt Ideal) ℓ)

/-- The four argument arrays as the kernel finds them. -/
abbrev U (c : Dev nD) : Cert.Spec.Arr 16384 3 := m ((c : Thread nD τ).loc main_arg0)
abbrev C (c : Dev nD) : Cert.Spec.Arr 4096 3 := m ((c : Thread nD τ).loc main_arg1)
abbrev W (c : Dev nD) : Cert.Spec.Arr 4096 3 := m ((c : Thread nD τ).loc main_arg2)
abbrev P (c : Dev nD) : Cert.Spec.Arr 4 3 := m ((c : Thread nD τ).loc main_arg3)

/-- What point `n` adds to the accumulator: its control-point tile's contribution to its query tile. -/
def addend (c : Dev nD) (n : Nat) : S1024x3.Idx → EReal := fun y =>
  Cert.Spec.tileSum (U m c) (C m c) (W m c) n (Cert.Spec.qryRow (n / 4) (y 0)) (y 1)

/-- One step on any blocks: the accumulator plus the tile's contribution, entry by entry. -/
theorem step_var (x0 x1 x2 acc : Vec Ideal S1024x3 .f32) (p : Fin 1024) (j : Fin 3) :
    k0_pay1 (k0_pay4 x0 x1 x2 acc) (ix2 p j)
      = acc (ix2 p j) + ∑ q : Fin 1024, Cert.Spec.tps (Cert.Spec.sqK (n := 1024) (k := 1024) x0 x1 p q) * x2 (ix2 q j) := by
  rw [Cert.Pay.pay1_eq]
  exact Cert.Pay.pay4_apply x0 x1 x2 acc p j

/-- One step at grid point `t`, on the blocks the windows hold there. -/
theorem step_apply (c : Dev nD) (t : Fin cfg0.N) (acc : Vec Ideal S1024x3 .f32) (y : S1024x3.Idx) :
    k0_pay1 (k0_pay4 (iblk m c 0 t) (iblk m c 1 t) (iblk m c 2 t) acc) y = acc y + addend m c t.val y := by
  obtain ⟨p, j, rfl⟩ : ∃ (p : Fin 1024) (j : Fin 3), y = ix2 p j := ⟨y 0, y 1, eq_ix2 y⟩
  refine (step_var (iblk m c 0 t) (iblk m c 1 t) (iblk m c 2 t) acc p j).trans ?_
  refine congrArg (acc (ix2 p j) + ·) ?_
  unfold addend Cert.Spec.tileSum
  refine Finset.sum_congr rfl fun q _ => ?_
  have hs : Cert.Spec.sqK (n := 1024) (k := 1024) (iblk m c 0 t) (iblk m c 1 t) p q
      = Cert.Spec.sqK (U m c) (C m c) (Cert.Spec.qryRow (t.val / 4) p) (Cert.Spec.ctlRow t.val q) := by
    simp only [Cert.Spec.sqK, Cert.Spec.nsq, Cert.Blocks.iblk0_apply, Cert.Blocks.iblk1_apply]
  rw [hs, Cert.Blocks.iblk2_apply]

/-- A first point of a run (n ≡ 0 mod 4) leaves the zero word plus its addend, whatever was there before. -/
theorem scAt_first (c : Dev nD) (n : ℕ) (hb : n < cfg0.N) (h0 : n % 4 = 0) (acc : Vec Ideal S1024x3 .f32)
    (y : S1024x3.Idx) :
    Cert.KernelIdeal.Value.scAt0_0 m c n hb acc y = Cert.Spec.w0 + addend m c n y := by
  have h1 : ¬n % 4 = 3 := by omega
  unfold Cert.KernelIdeal.Value.scAt0_0
  rw [dif_pos h0, dif_neg h1]
  refine (congrFun (Cert.Pieces.scratch_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) y).trans ?_
  refine (step_apply m c (⟨n, hb⟩ : Fin cfg0.N) (k0_pay3 (F := Ideal)) y).trans ?_
  rw [Cert.Pay.pay3_apply]

/-- A later point of a run adds its addend to what the point before left. -/
theorem scAt_later (c : Dev nD) (n : ℕ) (hb : n < cfg0.N) (h0 : ¬n % 4 = 0) (acc : Vec Ideal S1024x3 .f32)
    (y : S1024x3.Idx) :
    Cert.KernelIdeal.Value.scAt0_0 m c n hb acc y = acc y + addend m c n y := by
  unfold Cert.KernelIdeal.Value.scAt0_0
  rw [dif_neg h0]
  by_cases h1 : n % 4 = 3
  · rw [dif_pos h1]
    refine (congrFun (Cert.Pieces.scratch_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) y).trans ?_
    exact step_apply m c (⟨n, hb⟩ : Fin cfg0.N) acc y
  · rw [dif_neg h1]
    refine (congrFun (Cert.Pieces.scratch_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) y).trans ?_
    exact step_apply m c (⟨n, hb⟩ : Fin cfg0.N) acc y

/-- THE ACCUMULATOR AFTER POINT `t`: the zero word plus the addends of the run's points up to `t`. -/
theorem scratch_at (c : Dev nD) (t : Fin cfg0.N) (y : S1024x3.Idx) :
    (outsAt0 m c t.val t.isLt).2 y
      = Cert.Spec.w0 + ∑ s ∈ Finset.range (t.val % 4 + 1), addend m c (4 * (t.val / 4) + s) y := by
  have ht := Cert.Blocks.t_lt t
  rw [Cert.KernelIdeal.Value.soutsAt0_0_eq m c t]
  refine Pipeline.accAt_add_apply
    (fun n h => Cert.KernelIdeal.Value.scAt0_0 m c n h (VS0_0.read (Elt Ideal) VS0_0.junk))
    (Cert.KernelIdeal.Value.scAt0_0 m c) (fun _ => Cert.Spec.w0) (addend m c) (4 * (t.val / 4)) 3
    (fun h i => ?_) (fun n h acc i hlo hhi => ?_) (t.val % 4) (by omega) _ y
  · exact scAt_first m c _ h (by omega) _ i
  · exact scAt_later m c n h (by omega) acc i

end Cert.Fold

end
-- ==== Proof.LibBlockSum.lean ====
/-
  Sums over a range cut into equal blocks.

  The numbers below `A * B` are the numbers `B * t + r` with `t < A` and `r < B`, each once: a sum over them is the
  double sum over the block `t` and the position `r` inside the block. A sum over triples is the triple sum.
-/
import Mathlib.Algebra.BigOperators.Fin
import Mathlib.Logic.Equiv.Fin.Basic

open scoped BigOperators

namespace Cert.BlockSum

variable {M : Type*} [AddCommMonoid M]

/-- Position `r` of block `t` lies below `A * B`. -/
theorem blk_lt {A B : ℕ} (t : Fin A) (r : Fin B) : B * t.val + r.val < A * B :=
  calc B * t.val + r.val < B * t.val + B := Nat.add_lt_add_left r.isLt _
    _ = B * (t.val + 1) := (Nat.mul_succ _ _).symm
    _ ≤ B * A := Nat.mul_le_mul_left B t.isLt
    _ = A * B := Nat.mul_comm _ _

/-- A sum over the numbers below `N = A * B` is the double sum over blocks and positions. -/
theorem sum_fin_blocks {A B N : ℕ} (hN : N = A * B) (f : Fin N → M) :
    ∑ j, f j = ∑ t : Fin A, ∑ r : Fin B, f ⟨B * t.val + r.val, hN ▸ blk_lt t r⟩ := by
  subst hN
  rw [← Equiv.sum_comp finProdFinEquiv f, Fintype.sum_prod_type]
  refine Finset.sum_congr rfl fun t _ => Finset.sum_congr rfl fun r _ => congrArg f (Fin.ext ?_)
  show r.val + B * t.val = B * t.val + r.val
  exact Nat.add_comm _ _

/-- A sum over triples is the triple sum. -/
theorem sum_triple {α β γ : Type*} [Fintype α] [Fintype β] [Fintype γ] (f : α × β × γ → M) :
    ∑ q, f q = ∑ x, ∑ y, ∑ z, f (x, y, z) := by
  rw [Fintype.sum_prod_type]
  exact Finset.sum_congr rfl fun x _ => Fintype.sum_prod_type _

end Cert.BlockSum
-- ==== Proof.Bridge.lean ====
/-
  The two arrangements agree on real inputs.
  (1) The float words 0, 1, −2, 2 denote those reals.
  (2) Four tiles of 1024 control points are the 4096 control points: a sum over the tiles of the sums inside a tile is
      the sum over all of them (sums of extended reals commute and associate; no finiteness is needed here).
  (3) For real query and control coordinates,
        |u|² + (Σ_d u_d·(−2·c_d) + 1·|c|²) = (0 + |u|²) + (0 + |c|²) − 2·Σ_d u_d·c_d :
      this is where finiteness is used — distributing −2 over the sum and reading a difference as a sum with the
      negative fail at infinities.
-/
import proofs.«156540_j52896817217912_1_alg».proof.Proof.Spec
import proofs.«156540_j52896817217912_1_alg».proof.Proof.LibBlockSum

noncomputable section

open scoped BigOperators

namespace Cert.Bridge

open Idealize.ShloMosaic Idealize.ShloMosaic.ValueIdx Cert.Spec

theorem w0_eq : w0 = 0 := by
  simp [w0, Ideal.ofBits, Ideal.ieee]

theorem w1_eq : w1 = ((1 : ℝ) : EReal) := by
  simp [w1, Ideal.ofBits, Ideal.ieee, -EReal.coe_mul]; norm_num

theorem wm2_eq : wm2 = ((-2 : ℝ) : EReal) := by
  simp [wm2, Ideal.ofBits, Ideal.ieee, -EReal.coe_mul]; norm_num

theorem w2_eq : w2 = ((2 : ℝ) : EReal) := by
  simp [w2, Ideal.ofBits, Ideal.ieee, -EReal.coe_mul]; norm_num

/-- Tile `4·k + s` is tile `s`. -/
theorem ctlRow_add (k s : Nat) (q : Fin 1024) : ctlRow (4 * k + s) q = ctlRow s q := by
  apply Fin.ext
  show 1024 * ((4 * k + s) % 4) + q.val = 1024 * (s % 4) + q.val
  rw [Nat.mul_add_mod]

/-- (2): the tiles exhaust the control points. -/
theorem sum_tiles (f : Fin 4096 → EReal) :
    ∑ s ∈ Finset.range 4, ∑ q : Fin 1024, f (ctlRow s q) = ∑ n : Fin 4096, f n := by
  rw [Cert.BlockSum.sum_fin_blocks (A := 4) (B := 1024) (by norm_num) f, Finset.sum_range]
  refine Finset.sum_congr rfl fun s _ => Finset.sum_congr rfl fun q _ => congrArg f (Fin.ext ?_)
  show 1024 * (s.val % 4) + q.val = 1024 * s.val + q.val
  rw [Nat.mod_eq_of_lt s.isLt]

/-- (3): the two arrangements of the squared distance, on real coordinates. -/
theorem sq_eq {n k : Nat} (U : Arr n 3) (C : Arr k 3) (hU : ∀ i, ∃ r : ℝ, U i = (r : EReal))
    (hC : ∀ i, ∃ r : ℝ, C i = (r : EReal)) (b : Fin n) (q : Fin k) : sqK U C b q = sqR U C b q := by
  choose u hu using hU
  choose cc hc using hC
  simp only [sqK, sqR, nsq, Fin.sum_univ_three, hu, hc, w0_eq, w1_eq, wm2_eq, w2_eq, zero_add]
  norm_cast
  push_cast
  ring

/-- So on real query and control coordinates the kernel's function is the reference's. -/
theorem GK_eq_GR (U : Arr 16384 3) (C W : Arr 4096 3) (P : Arr 4 3) (hU : ∀ i, ∃ r : ℝ, U i = (r : EReal))
    (hC : ∀ i, ∃ r : ℝ, C i = (r : EReal)) : GK U C W P = GR U C W P := by
  funext i
  unfold GK GR
  congr 1
  rw [w0_eq, zero_add]
  unfold tileSum
  rw [← sum_tiles (fun n => tps (sqR U C (i 0) n) * W (ix2 n (i 1)))]
  refine Finset.sum_congr rfl fun s _ => Finset.sum_congr rfl fun q _ => ?_
  exact congrArg (fun z => tps z * W (ix2 (ctlRow s q) (i 1))) (sq_eq U C hU hC (i 0) (ctlRow s q))

end Cert.Bridge

end
-- ==== Proof.Final.lean ====
/-
  The result array. Only the last point of a run (t ≡ 3 mod 4) writes its output block back, and that block is rows
  1024·(t / 4) … of the result: accumulator + affine term, entry by entry, which is the specification's function GK read
  through the block. The sixteen written blocks tile the result array, so after the run the array is GK of the arguments.
-/
import proofs.«156540_j52896817217912_1_alg».proof.Proof.Gen.KernelIdeal.Value
import proofs.«156540_j52896817217912_1_alg».proof.Proof.Spec
import proofs.«156540_j52896817217912_1_alg».proof.Proof.Pieces
import proofs.«156540_j52896817217912_1_alg».proof.Proof.Blocks
import proofs.«156540_j52896817217912_1_alg».proof.Proof.Pay
import proofs.«156540_j52896817217912_1_alg».proof.Proof.Fold
import proofs.«156540_j52896817217912_1_alg».proof.Proof.Bridge
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.Final

open Cert.KernelIdeal Cert.KernelIdeal.Gen Cert.Fold

variable (m : (ℓ : Loc nD τ sig) → Buf (Elt Ideal) ℓ) (ρ : Dev nD → PrngReg)

/-- The kernel's function of the argument arrays as it finds them. -/
abbrev result (c : Dev nD) : Buf (Elt Ideal) ((c : Thread nD τ).loc main_v0) :=
  Cert.Spec.GK (U m c) (C m c) (W m c) (P m c)

/-- At the last point of a run the accumulator the step leaves is the run's accumulator after that point. -/
theorem acc_last (c : Dev nD) (t : Fin cfg0.N) (h0 : ¬t.val % 4 = 0) (h3 : t.val % 4 = 3) :
    k0_pay1 (k0_pay4 (iblk m c 0 t) (iblk m c 1 t) (iblk m c 2 t)
        (outsAt0 m c (t.val - 1) (Nat.lt_of_le_of_lt (Nat.sub_le _ _) t.isLt)).2)
      = (outsAt0 m c t.val t.isLt).2 := by
  rw [outsAt0_C m c t h0 h3]
  dsimp only
  exact (Cert.Pieces.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)
    (outsAt0 m c (t.val - 1) (Nat.lt_of_le_of_lt (Nat.sub_le _ _) t.isLt)).2).symm

/-- WHAT A WRITING POINT WRITES BACK is its block of GK of the arguments. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have h0 : ¬t.val % 4 = 0 := by omega
  have ht := Cert.Blocks.t_lt t
  rw [Cert.KernelIdeal.Value.flushed4_C m c t h0 h3]
  refine (congrArg ((cfg0.win 4).cut (grid0.coords t)) (Cert.Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)
    (outsAt0 m c (t.val - 1) (Nat.lt_of_le_of_lt (Nat.sub_le _ _) t.isLt)).2)).trans ?_
  rw [acc_last m c t h0 h3]
  funext y
  obtain ⟨p, j, rfl⟩ : ∃ (p : Fin 1024) (j : Fin 3), y = ix2 p j := ⟨y 0, y 1, eq_ix2 y⟩
  show k0_pay2 (iblk m c 0 t) (iblk m c 3 t) (outsAt0 m c t.val t.isLt).2 (ix2 p j)
    = result m c (((cfg0.win 4).blk t).view.emb (ix2 p j))
  rw [Cert.Blocks.oblk_emb]
  refine (Cert.Pay.pay2_apply (iblk m c 0 t) (iblk m c 3 t) (outsAt0 m c t.val t.isLt).2 p j).trans ?_
  rw [scratch_at m c t (ix2 p j), show t.val % 4 + 1 = 4 by omega]
  show _ = (Cert.Spec.w0 + ∑ s ∈ Finset.range 4, Cert.Spec.tileSum (U m c) (C m c) (W m c) s (Cert.Spec.qryRow (t.val / 4) p) j)
    + Cert.Spec.affine (U m c) (P m c) (Cert.Spec.qryRow (t.val / 4) p) j
  congr 1
  · refine congrArg (Cert.Spec.w0 + ·) (Finset.sum_congr rfl fun s hs => ?_)
    have hs4 : s < 4 := Finset.mem_range.mp hs
    show Cert.Spec.tileSum (U m c) (C m c) (W m c) (4 * (t.val / 4) + s) (Cert.Spec.qryRow ((4 * (t.val / 4) + s) / 4) p) j = _
    rw [show (4 * (t.val / 4) + s) / 4 = t.val / 4 by omega]
    unfold Cert.Spec.tileSum
    simp only [Cert.Bridge.ctlRow_add]
  · simp only [Cert.Spec.affine, Cert.Blocks.iblk0_apply, Cert.Blocks.iblk3_apply]

/-- An index of the result array is in point `t`'s block iff each coordinate is in the block's range on its axis. -/
theorem mem_blk (t : Fin cfg0.N) (i : S16384x3.Idx) :
    i ∈ ((cfg0.win 4).blk t).view.set ↔ ∀ a : Fin 2, win0_4.index t a * S1024x3.size a ≤ (i a).val
      ∧ (i a).val < win0_4.index t a * S1024x3.size a + S1024x3.size a := by
  show i ∈ ((View.whole main_v0).slice (win0_4.rect t)).set ↔ _
  rw [View.set_slice_whole, Rect.mem_set_unit]
  exact Iff.rfl

/-- Row `b` of the result lies in the block written at the last point of run `b / 1024`. -/
theorem cover (i : S16384x3.Idx) :
    ∃ t : Fin cfg0.N, (cfg0.win 4).flush t = true ∧ i ∈ ((cfg0.win 4).blk t).view.set := by
  have hi0 : (i 0).val < 16384 := (i 0).isLt
  have hi1 : (i 1).val < 3 := (i 1).isLt
  have hN : cfg0.N = 64 := N_0
  refine ⟨⟨4 * ((i 0).val / 1024) + 3, by rw [hN]; omega⟩, (flush0_4 _).mpr (by show (4 * ((i 0).val / 1024) + 3) % 4 = 3; omega), ?_⟩
  rw [mem_blk]
  obtain ⟨-, -, -, -, -, -, -, -, e0, e1⟩ := Cert.Blocks.idx_facts ⟨4 * ((i 0).val / 1024) + 3, by rw [hN]; omega⟩
  intro a
  match a with
  | ⟨0, _⟩ =>
    show win0_4.index _ (0 : Fin 2) * 1024 ≤ (i 0).val ∧ (i 0).val < win0_4.index _ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win0_4.index _ (1 : Fin 2) * 3 ≤ (i 1).val ∧ (i 1).val < win0_4.index _ (1 : Fin 2) * 3 + 3
    rw [e1]
    omega

/-- THE RESULT ARRAY after the run is GK of the argument arrays. -/
theorem final (c : Dev nD) : (dats m 0 c).arrAt 4 cfg0.N = result m c :=
  (dats m 0 c).arrAt_eq_of_cover 4 (result m c) (flushed_eq m c) cover

/-- The kernel's run, read: the result array at GK of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Final

end
-- ==== Proof.RefValue.lean ====
/-
  The reference program's result, read entry by entry, is the specification's reference-side function:
  at entry (b, j) it is  Σ_n φ(|u_b − c_n|²) · w_nj + (1, u_b) · p_·j  with the squared distance spelled
  (0 + |u_b|²) + (0 + |c_n|²) − 2 · Σ_d u_bd · c_nd .
  Each stage is read at an index built from coordinates; the stages are then chained.
-/
import proofs.«156540_j52896817217912_1_alg».proof.Proof.Gen.ReferenceIdeal.Read
import proofs.«156540_j52896817217912_1_alg».proof.Proof.Spec

noncomputable section

open scoped BigOperators

namespace Cert.RefValue

open Cert.ReferenceIdeal Cert.ReferenceIdeal.Gen Cert.ReferenceIdeal.Read
open Idealize.ShloMosaic Idealize.ShloMosaic.ValueIdx Cert.Spec

/-- The arrays the reference takes and makes, at the ideal instance. -/
abbrev AU : Type := (⟨S16384x3, .f32⟩ : BufTy).Contents (Elt Ideal)
abbrev AC : Type := (⟨S4096x3, .f32⟩ : BufTy).Contents (Elt Ideal)
abbrev AP : Type := (⟨S4x3, .f32⟩ : BufTy).Contents (Elt Ideal)

/-! ## The squared norms -/

/-- Row b's squared norm of the query array: the zero word plus the sum of the three squares. -/
theorem v1_at (x0 : AU) (b : Fin 16384) :
    val_main_v1 (F := Ideal) x0 (ix1 b) = w0 + nsq x0 b := by
  rw [val_main_v1_apply]
  refine congrArg (_ + ·) (Finset.sum_congr rfl fun k _ => ?_)
  rw [val_main_v0_apply]
  have e : idx_main_v1 (ix1 b) k = ix2 b k :=
    funext fun a => Fin.ext (by match a with | ⟨0, _⟩ => rfl | ⟨1, _⟩ => rfl)
  rw [e]
  rfl

/-- Row n's squared norm of the control array. -/
theorem v4_at (x1 : AC) (n : Fin 4096) :
    val_main_v4 (F := Ideal) x1 (ix1 n) = w0 + nsq x1 n := by
  rw [val_main_v4_apply]
  refine congrArg (_ + ·) (Finset.sum_congr rfl fun k _ => ?_)
  rw [val_main_v3_apply]
  have e : idx_main_v4 (ix1 n) k = ix2 n k :=
    funext fun a => Fin.ext (by match a with | ⟨0, _⟩ => rfl | ⟨1, _⟩ => rfl)
  rw [e]
  rfl

/-! ## The inner products -/

/-- Entry (b, n) of the product of the queries with the transposed controls. -/
theorem v10_at (x0 : AU) (x1 : AC) (b : Fin 16384) (n : Fin 4096) :
    val_main_v10 (F := Ideal) x0 x1 (ix2 b n) = ∑ d : Fin 3, x0 (ix2 b d) * x1 (ix2 n d) := by
  rw [val_main_v10_apply]
  refine Finset.sum_congr rfl fun k _ => ?_
  rw [val_main_v9_apply]
  have el : lidx_main_v10 (ix2 b n) k = ix2 b k :=
    funext fun a => Fin.ext (by match a with | ⟨0, _⟩ => rfl | ⟨1, _⟩ => rfl)
  have er : idx_main_v9 (ridx_main_v10 (ix2 b n) k) = ix2 n k :=
    funext fun a => Fin.ext (by match a with | ⟨0, _⟩ => rfl | ⟨1, _⟩ => rfl)
  rw [el, er]

/-! ## The squared distance -/

/-- Entry (b, n) of the squared-distance stage is the reference's arrangement of |u_b − c_n|². -/
theorem v13_at (x0 : AU) (x1 : AC) (b : Fin 16384) (n : Fin 4096) :
    val_main_v13 (F := Ideal) x0 x1 (ix2 b n) = sqR x0 x1 b n := by
  have e2 : idx_main_v2 (idx_main_v6 (ix2 b n)) = ix1 b :=
    funext fun a => Fin.ext (by match a with | ⟨0, _⟩ => rfl)
  have e5 : idx_main_v5 (idx_main_v7 (ix2 b n)) = ix1 n :=
    funext fun a => Fin.ext (by match a with | ⟨0, _⟩ => rfl)
  rw [val_main_v13_apply, val_main_v8_apply, val_main_v6_apply, val_main_v2_apply, val_main_v7_apply,
    val_main_v5_apply, val_main_v12_apply, val_main_v11_apply, val_main_cst_1_apply, e2, e5,
    v1_at, v4_at, v10_at]
  rfl

/-! ## The radial kernel -/

/-- Entry (b, n) of the kernel-matrix stage is φ of the squared distance. -/
theorem v24_at (x0 : AU) (x1 : AC) (b : Fin 16384) (n : Fin 4096) :
    val_main_v24 (F := Ideal) x0 x1 (ix2 b n) = tps (sqR x0 x1 b n) := by
  rw [val_main_v24_apply, val_main_v22_apply, val_main_v23_apply, val_main_v20_apply, val_main_v19_apply,
    val_main_v18_apply, val_main_v17_apply, val_main_v21_apply, val_main_v16_apply, val_main_v15_apply,
    val_main_v14_apply, val_main_cst_2_apply, val_main_cst_3_apply, val_main_cst_4_apply,
    val_main_cst_5_apply, v13_at]
  rfl

/-! ## The augmented query rows (1, u_b) -/

/-- Column 0 of the augmented rows is the one word. -/
theorem v26_at_zero (x0 : AU) (b : Fin 16384) :
    val_main_v26 (F := Ideal) x0 (ix2 b (0 : Fin 4)) = w1 := by
  unfold val_main_v26
  refine (concatenate_pair_apply_left (1 : Fin S16384x4.rank) (val_main_v25 (F := Ideal)) x0
    concatenates_S16384x1_S16384x3_S16384x4_d1 (ix2 b (0 : Fin 4)) rfl (ix2 b (0 : Fin 1))
    (fun a => by match a with | ⟨0, _⟩ => rfl | ⟨1, _⟩ => rfl)).trans ?_
  rw [val_main_v25_apply]
  rfl

/-- Column d + 1 of the augmented rows is coordinate d of the query. -/
theorem v26_at_succ (x0 : AU) (b : Fin 16384) (d : Fin 3) :
    val_main_v26 (F := Ideal) x0 (ix2 b d.succ) = x0 (ix2 b d) := by
  unfold val_main_v26
  exact concatenate_pair_apply_right (1 : Fin S16384x4.rank) (val_main_v25 (F := Ideal)) x0
    concatenates_S16384x1_S16384x3_S16384x4_d1 (ix2 b d.succ) rfl rfl (ix2 b d)
    (fun a => by
      match a with
      | ⟨0, _⟩ => exact fun _ => rfl
      | ⟨1, _⟩ => exact fun h => absurd rfl h)
    rfl

/-! ## The two contractions and their sum -/

/-- Entry (b, j) of the radial part: the sum over all control points of φ · w. -/
theorem v27_at (x0 : AU) (x1 x2 : AC) (b : Fin 16384) (j : Fin 3) :
    val_main_v27 (F := Ideal) x0 x1 x2 (ix2 b j) = ∑ n : Fin 4096, tps (sqR x0 x1 b n) * x2 (ix2 n j) := by
  rw [val_main_v27_apply]
  refine Finset.sum_congr rfl fun k _ => ?_
  have el : lidx_main_v27 (ix2 b j) k = ix2 b k :=
    funext fun a => Fin.ext (by match a with | ⟨0, _⟩ => rfl | ⟨1, _⟩ => rfl)
  have er : ridx_main_v27 (ix2 b j) k = ix2 k j :=
    funext fun a => Fin.ext (by match a with | ⟨0, _⟩ => rfl | ⟨1, _⟩ => rfl)
  rw [el, er, v24_at]

/-- Entry (b, j) of the affine part: (1, u_b) · p_·j . -/
theorem v28_at (x0 : AU) (x3 : AP) (b : Fin 16384) (j : Fin 3) :
    val_main_v28 (F := Ideal) x0 x3 (ix2 b j) = affine x0 x3 b j := by
  have el : ∀ k : Fin 4, lidx_main_v28 (ix2 b j) k = ix2 b k := fun k =>
    funext fun a => Fin.ext (by match a with | ⟨0, _⟩ => rfl | ⟨1, _⟩ => rfl)
  have er : ∀ k : Fin 4, ridx_main_v28 (ix2 b j) k = ix2 k j := fun k =>
    funext fun a => Fin.ext (by match a with | ⟨0, _⟩ => rfl | ⟨1, _⟩ => rfl)
  rw [val_main_v28_apply, Fin.sum_univ_succ, el, er, v26_at_zero]
  refine congrArg (_ + ·) (Finset.sum_congr rfl fun d _ => ?_)
  rw [el, er, v26_at_succ]

/-- THE REFERENCE IS THE SPECIFICATION'S REFERENCE-SIDE FUNCTION. -/
theorem ref_eq (x0 : (⟨S16384x3, .f32⟩ : BufTy).Contents (Elt Ideal))
    (x1 x2 : (⟨S4096x3, .f32⟩ : BufTy).Contents (Elt Ideal))
    (x3 : (⟨S4x3, .f32⟩ : BufTy).Contents (Elt Ideal)) :
    Cert.ReferenceIdeal.Read.val_main_v29 (F := Ideal) x0 x1 x2 x3 = Cert.Spec.GR x0 x1 x2 x3 := by
  funext i
  obtain ⟨b, j, rfl⟩ : ∃ (b : Fin 16384) (j : Fin 3), i = ix2 b j := ⟨i 0, i 1, eq_ix2 i⟩
  rw [val_main_v29_apply, v27_at, v28_at]
  rfl

end Cert.RefValue

end
-- ==== Proof.Finite.lean ====
/-
  Every float input is a real number. The precondition computes, for each of the four input arrays, the conjunction over
  all entries of |x| < +∞, and asserts that the conjunction of the four results is true. On the extended reals |x| is
  max x (−x), which is +∞ at both infinities; so |x| < +∞ holds exactly when x is (the coercion of) a real number.
-/
import proofs.«156540_j52896817217912_1_alg».proof.Pre_finite_inputs
import Idealize.ShloMosaic.PureOps.Ideal
import Idealize.ShloMosaic.Lib.ValueIdx
import Idealize.ShloMosaic.Lib.ReduceAll

noncomputable section

namespace Cert.Finite

open Idealize.ShloMosaic

/-- The rank-0 shape has one index. -/
instance subsingleton_scalar_idx : Subsingleton Cert.Pre_finite_inputs.S_.Idx := ⟨fun a b => funext fun d => d.elim0⟩

/-- The word 0x7F800000 (sign 0, exponent all ones, fraction 0) denotes +∞. -/
theorem inf_word : Ideal.ofBits .f32 0x7F800000#32 = (⊤ : EReal) := by
  simp [Ideal.ofBits, Ideal.ieee]

/-- On the extended reals, max a (−a) < +∞ only at a real number: at a = +∞ the maximum is a, at a = −∞ it is −a = +∞. -/
theorem real_of_abs_lt (a : EReal) (h : Ideal.cmp .olt (max a (-a)) (Ideal.ofBits .f32 0x7F800000#32) = 1#1) :
    ∃ r : ℝ, a = (r : EReal) := by
  rw [inf_word] at h
  induction a using EReal.rec with
  | bot => exact absurd h (by simp [Ideal.cmp])
  | top => exact absurd h (by simp [Ideal.cmp])
  | coe r => exact ⟨r, rfl⟩

/-- One array: if the conjunction over all entries of |x| < +∞ is true, every entry is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr hu ValueIdx.ix0 = 1#1) :
    ∀ i, ∃ r : ℝ, x i = (r : EReal) := by
  intro i
  have hi := Host.reduce_andi_all _ init hr hu ValueIdx.ix0 e i
  exact real_of_abs_lt (x i) hi

theorem real_of_pre [Cert.Pre_finite_inputs.Facts]
    (x0 : FVec Ideal Cert.Pre_finite_inputs.S16384x3 .f32) (x1 x2 : FVec Ideal Cert.Pre_finite_inputs.S4096x3 .f32) (x3 : FVec Ideal Cert.Pre_finite_inputs.S4x3 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have e := congrFun h ValueIdx.ix0
  dsimp only [Cert.Pre_finite_inputs.fn, Cert.Pre_finite_inputs.fn_part1] at e
  have e' : IntOp.andi (IntOp.andi (IntOp.andi _ _) _) _ = 1#1 := e
  obtain ⟨h012, h3⟩ := IntOp.andi_eq_one.1 e'
  obtain ⟨h01, h2⟩ := IntOp.andi_eq_one.1 h012
  obtain ⟨h0, h1⟩ := IntOp.andi_eq_one.1 h01
  exact ⟨real_of_all x0 _ _ _ _ h0, real_of_all x1 _ _ _ _ h1, real_of_all x2 _ _ _ _ h2, real_of_all x3 _ _ _ _ h3⟩

end Cert.Finite

end
-- ==== Proof.lean ====
/-
  Thin-plate-spline interpolation in three dimensions: for query points u_b (16384 of them), control points c_n (4096),
  weights w_nj and affine coefficients p, the result is  Σ_n φ(|u_b − c_n|) · w_nj + (1, u_b) · p_·j  with φ(r) = r · log r
  on the distance clamped below at ε (and φ = 0 where the distance is under ε).

  The kernel walks a 16 × 4 grid: query tile i against control-point tile s. It takes the squared distances of a tile pair
  in ONE contraction of the augmented rows (u, 1) and (−2c, |c|²), adds |u|², applies φ, multiplies by the weight tile and
  adds into an accumulator that is zeroed at s = 0; at s = 3 it adds the affine term and writes the query tile's block of
  the result. The reference takes |u|² + |c|² − 2·u·c for all pairs at once and contracts over all 4096 control points.

  On the extended reals the two agree when the coordinates are real numbers: the only law used that fails at
  infinities is −2·Σ_d u_d·c_d = Σ_d u_d·(−2·c_d) together with a − b = a + (−b); the regrouping of the 4096-term sum
  into four tiles of 1024 is associativity and commutativity of + alone. Finiteness of the inputs is the precondition.

  Modules: Spec (both arrangements as functions of the arrays), Pay (the body's arithmetic at an index), Pieces (what a
  step leaves behind), Blocks (where a block sits in its array), Fold (the accumulator over a run of four points), Final
  (the result array after the run), RefValue (the reference's term is its function), Finite (every entry is real),
  Bridge (the two functions agree on real coordinates).
-/
import proofs.«156540_j52896817217912_1_alg».proof.Defs
import proofs.«156540_j52896817217912_1_alg».proof.Proof.Gen.Kernel
import proofs.«156540_j52896817217912_1_alg».proof.Proof.Gen.Kernel.Skeleton
import proofs.«156540_j52896817217912_1_alg».proof.Proof.Gen.Kernel.Launch
import proofs.«156540_j52896817217912_1_alg».proof.Proof.Gen.Kernel.Points
import proofs.«156540_j52896817217912_1_alg».proof.Proof.Gen.Kernel.Frame
import proofs.«156540_j52896817217912_1_alg».proof.Proof.Gen.KernelIdeal
import proofs.«156540_j52896817217912_1_alg».proof.Proof.Gen.KernelIdeal.Skeleton
import proofs.«156540_j52896817217912_1_alg».proof.Proof.Gen.KernelIdeal.Launch
import proofs.«156540_j52896817217912_1_alg».proof.Proof.Gen.KernelIdeal.Points
import proofs.«156540_j52896817217912_1_alg».proof.Proof.Gen.KernelIdeal.Frame
import proofs.«156540_j52896817217912_1_alg».proof.Proof.Gen.KernelIdeal.Value
import proofs.«156540_j52896817217912_1_alg».proof.Proof.Gen.ReferenceIdeal
import proofs.«156540_j52896817217912_1_alg».proof.Proof.Gen.ReferenceIdeal.Run
import proofs.«156540_j52896817217912_1_alg».proof.Proof.Gen.ReferenceIdeal.Read
import proofs.«156540_j52896817217912_1_alg».proof.Proof.Gen.Pre_finite_inputs
import proofs.«156540_j52896817217912_1_alg».proof.Proof.Final
import proofs.«156540_j52896817217912_1_alg».proof.Proof.RefValue
import proofs.«156540_j52896817217912_1_alg».proof.Proof.Finite
import proofs.«156540_j52896817217912_1_alg».proof.Proof.Bridge
import Idealize.ShloMosaic.Adequacy
import Idealize.ShloMosaic.Init

noncomputable section

namespace Cert.Proof

open Idealize.ShloMosaic Idealize.SL.Sem

section Claims

variable [hK : Cert.Kernel.Facts] [hKI : Cert.KernelIdeal.Facts] [hR : Cert.ReferenceIdeal.Facts]
  [hP : Cert.Pre_finite_inputs.Facts]

/-- The word-level kernel runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- The kernel's result array ends at GK of its arguments, the reference's at GR of arguments that agree; the
    precondition makes every coordinate real, and there GK = GR. -/
theorem algebraic : Cert.algebraic_KernelIdeal_ReferenceIdeal := by
  intro m ρ m' ρ' hpre hagree
  refine ⟨fun c => Cert.Final.result m c, Cert.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Cert.RefValue.ref_eq, (hagree c).1, (hagree c).2.1,
    (hagree c).2.2.1, (hagree c).2.2.2]
  obtain ⟨hU, hC, -, -⟩ := Cert.Finite.real_of_pre _ _ _ _ (hpre c)
  exact (Cert.Bridge.GK_eq_GR _ _ _ _ hU hC).symm

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
